-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S16384 : Shape := ⟨1, ![16384]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x2048 .f32) (main_arg1 : FVec F S16384x2048 .f32) (main_arg2 : IVec S16384 32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  main_v8
-- ==== Kernel.lean ====
abbrev S16384x2048 : Shape := ⟨2, ![16384, 2048]⟩
abbrev S16384 : Shape := ⟨1, ![16384]⟩
abbrev S_ : Shape := ⟨0, ![]⟩
abbrev S16384x1 : Shape := ⟨2, ![16384, 1]⟩
abbrev S256x2048 : Shape := ⟨2, ![256, 2048]⟩
abbrev S256x1 : Shape := ⟨2, ![256, 1]⟩
abbrev S256 : Shape := ⟨1, ![256]⟩

abbrev nBuf : Space → Nat
  | .hbm => 17
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384, .i32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S16384x2048, .f32⟩
  | .hbm, ⟨12, _⟩ => ⟨S16384x1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x1, .f32⟩
  | .local _ .vmem, ⟨7, _⟩ => ⟨S256x1, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  reduces_S256x2048_S256 : S256x2048.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  reducesTo_S16384x1_S_d0_1 : S16384x1.ReducesTo [0, 1] S_
  h_S_ : 0 < S_.numel
  gather_S16384x2048_S16384x1_S16384x2048_1_0_n_n_0_1_12048_wf : GatherDims.WF S16384x2048 S16384x1 S16384x2048 [1] [0] [] [0] [] 1 ![1, 2048]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S16384x2048.size a
  hwx0_0 : ∀ i : grid0.Coords, EltTy.bits .f32 = 32 ∨ (Rect.block (s := S16384x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S16384x2048.size a
  hwx0_1 : ∀ i : grid0.Coords, EltTy.bits .f32 = 32 ∨ (Rect.block (s := S16384x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S16384x2048.size a
  hwx0_2 : ∀ i : grid0.Coords, EltTy.bits .f32 = 32 ∨ (Rect.block (s := S16384x2048) S256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S16384x1.size a
  hwx0_3 : ∀ i : grid0.Coords, EltTy.bits .f32 = 32 ∨ (Rect.block (s := S16384x1) S256x1.size (cc0_transform_3 i) (hinb0_3 i)).WholeWords (EltTy.packing .f32)

variable [Facts₀]

def gather_S16384x2048_S16384x1_S16384x2048_1_0_n_n_0_1_12048 : GatherDims S16384x2048 S16384x1 S16384x2048 where
  offsetDims := [1]
  collapsedSliceDims := [0]
  operandBatchingDims := []
  startIndicesBatchingDims := []
  startIndexMap := [0]
  indexVectorDim := 1
  sliceSizes := ![1, 2048]
  wf := gather_S16384x2048_S16384x1_S16384x2048_1_0_n_n_0_1_12048_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S256x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S16384 : Shape := ⟨1, ![16384]⟩
abbrev S_ : Shape := ⟨0, ![]⟩
abbrev S16384x1 : Shape := ⟨2, ![16384, 1]⟩

abbrev nBuf : Space → Nat
  | .hbm => 72
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384, .i32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384, .f32⟩
  | .hbm, ⟨7, _⟩ => ⟨S_, .f32⟩
  | .hbm, ⟨8, _⟩ => ⟨S16384, .f32⟩
  | .hbm, ⟨9, _⟩ => ⟨S16384, .f32⟩
  | .hbm, ⟨10, _⟩ => ⟨S16384x2048, .f32⟩
  | .hbm, ⟨11, _⟩ => ⟨S_, .f32⟩
  | .hbm, ⟨12, _⟩ => ⟨S16384, .f32⟩
  | .hbm, ⟨13, _⟩ => ⟨S16384, .f32⟩
  | .hbm, ⟨14, _⟩ => ⟨S_, .f32⟩
  | .hbm, ⟨15, _⟩ => ⟨S16384, .f32⟩
  | .hbm, ⟨16, _⟩ => ⟨S16384, .f32⟩
  | .hbm, ⟨17, _⟩ => ⟨S_, .i32⟩
  | .hbm, ⟨18, _⟩ => ⟨S16384, .i32⟩
  | .hbm, ⟨19, _⟩ => ⟨S16384, .i1⟩
  | .hbm, ⟨20, _⟩ => ⟨S_, .i32⟩
  | .hbm, ⟨21, _⟩ => ⟨S16384, .i32⟩
  | .hbm, ⟨22, _⟩ => ⟨S16384, .i32⟩
  | .hbm, ⟨23, _⟩ => ⟨S16384, .i32⟩
  | .hbm, ⟨24, _⟩ => ⟨S16384x1, .i32⟩
  | .hbm, ⟨25, _⟩ => ⟨S16384x2048, .f32⟩
  | .hbm, ⟨26, _⟩ => ⟨S_, .i32⟩
  | .hbm, ⟨27, _⟩ => ⟨S16384, .i32⟩
  | .hbm, ⟨28, _⟩ => ⟨S16384, .i1⟩
  | .hbm, ⟨29, _⟩ => ⟨S_, .i32⟩
  | .hbm, ⟨30, _⟩ => ⟨S16384, .i32⟩
  | .hbm, ⟨31, _⟩ => ⟨S16384, .i32⟩
  | .hbm, ⟨32, _⟩ => ⟨S16384, .i32⟩
  | .hbm, ⟨33, _⟩ => ⟨S16384x1, .i32⟩
  | .hbm, ⟨34, _⟩ => ⟨S16384, .f32⟩
  | .hbm, ⟨35, _⟩ => ⟨S16384x2048, .f32⟩
  | .hbm, ⟨36, _⟩ => ⟨S_, .f32⟩
  | .hbm, ⟨37, _⟩ => ⟨S16384, .f32⟩
  | .hbm, ⟨38, _⟩ => ⟨S16384, .f32⟩
  | .hbm, ⟨39, _⟩ => ⟨S16384, .f32⟩
  | .hbm, ⟨40, _⟩ => ⟨S16384x2048, .f32⟩
  | .hbm, ⟨41, _⟩ => ⟨S_, .f32⟩
  | .hbm, ⟨42, _⟩ => ⟨S16384, .f32⟩
  | .hbm, ⟨43, _⟩ => ⟨S16384, .f32⟩
  | .hbm, ⟨44, _⟩ => ⟨S16384, .f32⟩
  | .hbm, ⟨45, _⟩ => ⟨S16384x2048, .f32⟩
  | .hbm, ⟨46, _⟩ => ⟨S16384x2048, .f32⟩
  | .hbm, ⟨47, _⟩ => ⟨S16384x2048, .f32⟩
  | .hbm, ⟨48, _⟩ => ⟨S_, .f32⟩
  | .hbm, ⟨49, _⟩ => ⟨S16384x2048, .f32⟩
  | .hbm, ⟨50, _⟩ => ⟨S16384x2048, .f32⟩
  | .hbm, ⟨51, _⟩ => ⟨S_, .f32⟩
  | .hbm, ⟨52, _⟩ => ⟨S16384x2048, .f32⟩
  | .hbm, ⟨53, _⟩ => ⟨S16384x2048, .f32⟩
  | .hbm, ⟨54, _⟩ => ⟨S16384x2048, .i1⟩
  | .hbm, ⟨55, _⟩ => ⟨S_, .i1⟩
  | .hbm, ⟨56, _⟩ => ⟨S16384, .i1⟩
  | .hbm, ⟨57, _⟩ => ⟨S_, .f32⟩
  | .hbm, ⟨58, _⟩ => ⟨S_, .f32⟩
  | .hbm, ⟨59, _⟩ => ⟨S16384, .f32⟩
  | .hbm, ⟨60, _⟩ => ⟨S16384, .f32⟩
  | .hbm, ⟨61, _⟩ => ⟨S16384, .f32⟩
  | .hbm, ⟨62, _⟩ => ⟨S16384, .f32⟩
  | .hbm, ⟨63, _⟩ => ⟨S16384, .f32⟩
  | .hbm, ⟨64, _⟩ => ⟨S16384, .f32⟩
  | .hbm, ⟨65, _⟩ => ⟨S_, .f32⟩
  | .hbm, ⟨66, _⟩ => ⟨S16384, .f32⟩
  | .hbm, ⟨67, _⟩ => ⟨S16384, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_8 : Ref sig .tc := ⟨.hbm, 55, rfl⟩
abbrev main_v36 : Ref sig .tc := ⟨.hbm, 56, rfl⟩
abbrev main_cst_9 : Ref sig .tc := ⟨.hbm, 57, rfl⟩
abbrev main_cst_10 : Ref sig .tc := ⟨.hbm, 58, rfl⟩
abbrev main_call2_v0 : Ref sig .tc := ⟨.hbm, 59, rfl⟩
abbrev main_call2_v1 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_call3_cst : Ref sig .tc := ⟨.hbm, 65, rfl⟩
abbrev main_call3_v0 : Ref sig .tc := ⟨.hbm, 66, rfl⟩
abbrev main_v41 : Ref sig .tc := ⟨.hbm, 67, rfl⟩
abbrev main_cst_11 : Ref sig .tc := ⟨.hbm, 68, rfl⟩
abbrev main_v42 : Ref sig .tc := ⟨.hbm, 69, rfl⟩
abbrev main_cst_12 : Ref sig .tc := ⟨.hbm, 70, rfl⟩
abbrev main_v43 : Ref sig .tc := ⟨.hbm, 71, rfl⟩

abbrev nD : Nat := 1
abbrev τ : Topo := Topo.v7x

variable {F : FTy → Type} [FloatOps F]

class Facts₀ : Prop where
  reducesTo_S16384x2048_S16384_d1 : S16384x2048.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S_S16384x2048 : S_.BroadcastsInDim S16384x2048 (![] : Fin 0 → Fin S16384x2048.rank)
  reducesTo_S16384_S_d0 : S16384.ReducesTo [0] S_
  gather_S16384x2048_S16384x1_S16384x2048_1_0_n_n_0_1_12048_wf : GatherDims.WF S16384x2048 S16384x1 S16384x2048 [1] [0] [] [0] [] 1 ![1, 2048]
  gather_S16384_S16384x1_S16384_n_0_n_n_0_1_1_wf : GatherDims.WF S16384 S16384x1 S16384 [] [0] [] [0] [] 1 ![1]

variable [Facts₀]

def gather_S16384x2048_S16384x1_S16384x2048_1_0_n_n_0_1_12048 : GatherDims S16384x2048 S16384x1 S16384x2048 where
  offsetDims := [1]
  collapsedSliceDims := [0]
  operandBatchingDims := []
  startIndicesBatchingDims := []
  startIndexMap := [0]
  indexVectorDim := 1
  sliceSizes := ![1, 2048]
  wf := gather_S16384x2048_S16384x1_S16384x2048_1_0_n_n_0_1_12048_wf
def gather_S16384_S16384x1_S16384_n_0_n_n_0_1_1 : GatherDims S16384 S16384x1 S16384 where
  offsetDims := []
  collapsedSliceDims := [0]
  operandBatchingDims := []
  startIndicesBatchingDims := []
  startIndexMap := [0]
  indexVectorDim := 1
  sliceSizes := ![1]
  wf := gather_S16384_S16384x1_S16384_n_0_n_n_0_1_1_wf

class Facts : Prop extends Facts₀ where

variable [Facts]
-- ==== Proof.HingeRow.lean ====
/-
  The hinge loss of one sample, on the extended reals.

  A sample is three rows of 2048 entries: the prediction `a`, its own target `b`, and another sample's target `c`.
  With `‖x‖ = max (√(∑ xₖ²)) ε`, the loss is

      max (m − (∑ bₖ aₖ) / (‖b‖ · ‖a‖) + (∑ cₖ aₖ) / (‖c‖ · ‖a‖)) 0,

  where the margin `m` is −1/2 when `c` is entrywise close to `b` (`|cₖ − bₖ| ≤ atol + rtol · |bₖ|` for every `k`)
  and +1/2 otherwise. The float constants stay the binary values their patterns denote; nothing here evaluates them
  beyond the signs of 0, 1 and +∞.

  The one piece of mathematics is the closeness test. It can be taken as the conjunction of the 2048 comparison bits,
  or as "the minimum over `k` of (1 if close at `k` else 0), started from +∞, is positive": a minimum of zeros and
  ones is positive exactly when no zero occurs. `minFold_pos_eq_andFold` says the two bits are equal.
-/
import Idealize.ShloMosaic.PureOps.Ideal
import Idealize.ShloMosaic.PureOps.Ideal.Laws
import Idealize.ShloMosaic.PureOps.Reduce

noncomputable section

namespace Cert.Hinge

open Idealize.ShloMosaic

/-- The clamp `ε` of a norm (the pattern of the float nearest 1e-6). -/
def eps : EReal := Ideal.ofBits .f32 0x358637BD#32
/-- The relative tolerance (the float nearest 1e-5). -/
def rtol : EReal := Ideal.ofBits .f32 0x3727C5AC#32
/-- The absolute tolerance (the float nearest 1e-8). -/
def atol : EReal := Ideal.ofBits .f32 0x322BCC77#32
/-- The patterns of 0, 1 and +∞. -/
def zero : EReal := Ideal.ofBits .f32 0x00000000#32
def one : EReal := Ideal.ofBits .f32 0x3F800000#32
def top : EReal := Ideal.ofBits .f32 0x7F800000#32

/-- `∑ₖ xₖ yₖ`. -/
def dot (x y : Fin 2048 → EReal) : EReal := ∑ k, x k * y k

/-- The clamped norm `max (√(∑ xₖ²)) ε`. -/
def nrm (x : Fin 2048 → EReal) : EReal := max (Ideal.sqrt (dot x x)) eps

/-- The cosine of `y` against `a`, with clamped norms: `(∑ yₖ aₖ) / (‖y‖ · ‖a‖)`. -/
def cosine (y a : Fin 2048 → EReal) : EReal := Ideal.div (dot y a) (nrm y * nrm a)

/-- Is `c` close to `b` at entry `k`: `|cₖ − bₖ| ≤ atol + rtol · |bₖ|`, as a bit. -/
def closeBit (b c : Fin 2048 → EReal) (k : Fin 2048) : BitVec 1 :=
  Ideal.cmp .ole (max (c k - b k) (-(c k - b k))) (atol + rtol * max (b k) (-(b k)))

/-- All entries close: the conjunction of the bits. -/
def allClose (b c : Fin 2048 → EReal) : BitVec 1 :=
  (Finset.univ : Finset (Fin 2048)).fold IntOp.andi 1#1 (closeBit b c)

/-- The margin: −1/2 when the bit is set, +1/2 otherwise. -/
def margin (s : BitVec 1) : EReal :=
  Scalar.select s (Ideal.ofBits .f32 0xBF000000#32) (Ideal.ofBits .f32 0x3F000000#32)

/-- The loss of one sample. -/
def rowLoss (a b c : Fin 2048 → EReal) : EReal :=
  max (margin (allClose b c) - cosine b a + cosine c a) zero

/-! ## The closeness test as a minimum -/

theorem zero_eq : zero = 0 := Ideal.ofBits_zero_f32
theorem zero_lt_one : zero < one := by
  simp [zero, one, Ideal.ofBits, Ideal.ieee]
  first
    | (rw [← EReal.coe_mul, EReal.coe_pos]; positivity)
    | exact EReal.mul_pos (by exact_mod_cast (by norm_num : (0 : ℝ) < 8388608))
        (by exact_mod_cast (by positivity : (0 : ℝ) < (2 ^ 23)⁻¹))
theorem zero_lt_top : zero < top := by simp [zero, top, Ideal.ofBits, Ideal.ieee]

/-- `z < min x y` is `z < x` and `z < y`, on the comparison bits. -/
theorem cmp_ogt_min (x y z : EReal) :
    Ideal.cmp .ogt (min x y) z = IntOp.andi (Ideal.cmp .ogt x z) (Ideal.cmp .ogt y z) := by
  by_cases h1 : z < x <;> by_cases h2 : z < y <;> simp [Ideal.cmp, IntOp.andi, lt_min_iff, h1, h2]

/-- One entry's indicator is positive exactly when its bit is set. -/
theorem cmp_ogt_indicator (s : BitVec 1) : Ideal.cmp .ogt (Scalar.select s one zero) zero = s := by
  by_cases h : s = 1#1
  · subst h
    simp [Ideal.cmp, Scalar.select, zero_lt_one]
  · have h0 : s = 0#1 := by
      have := s.isLt
      apply BitVec.eq_of_toNat_eq
      have hne : s.toNat ≠ 1 := fun e => h (BitVec.eq_of_toNat_eq (by simpa using e))
      simp; omega
    subst h0
    simp [Ideal.cmp, Scalar.select]

/-- THE CLOSENESS TEST, BOTH WAYS: the minimum of the indicators from +∞ is positive exactly when every bit is set —
    the positivity bit of the minimum IS the conjunction of the bits, over any finite set of entries. -/
theorem minFold_pos_eq_andFold {ι : Type} [DecidableEq ι] (s : Finset ι) (f : ι → BitVec 1) :
    Ideal.cmp .ogt (s.fold (FloatOps.minimumf (F := Ideal) (φ := .f32)) top (fun k => Scalar.select (f k) one zero)) zero
      = s.fold IntOp.andi 1#1 f := by
  induction s using Finset.induction_on with
  | empty =>
    simp [Ideal.cmp, zero_lt_top]
  | insert a s ha ih =>
    rw [Finset.fold_insert ha, Finset.fold_insert ha]
    show Ideal.cmp .ogt (min _ _) zero = _
    rw [cmp_ogt_min, ih, cmp_ogt_indicator]

end Cert.Hinge

end
-- ==== Proof.LibKeepdims.lean ====
/-
  Reading a matrix row by row, at indices given by coordinates.

  Three facts every `keepdims` row statistic needs: a vector `[a]` viewed as a column `[a, 1]` holds, at `(p, 0)`,
  the vector's entry `p`; a sum over the columns of an `[m, n]` array, read at row `p`, is the sum over `k : Fin n` of
  the entries `(p, k)`; and a maximum over the columns, read at row `p`, is the fold of `max` over those entries.
  The last two hold on the extended reals, where a reduction has no order of evaluation left in it.
-/
import Idealize.ShloMosaic.Lib.Pipeline.Value
import Idealize.ShloMosaic.Lib.ValueIdx
import Idealize.ShloMosaic.PureOps.Ideal.Laws

namespace Cert.MemAttn.Layout

open Idealize.ShloMosaic Idealize.ShloMosaic.ValueIdx

variable {α : Type}

/-- An `[a]` array cast to the column `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- Row `p` with the column coordinate `k` put back is the index `(p, k)`. -/
theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A sum over the columns of an `[m, n]` array of extended reals, read at row `p`: the sum of that row's entries. -/
theorem multiReduction_add_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ) (hacc : acc = FKind.add.neutral φ hφ)
    (p : Fin m) :
    multiReduction .add [1] ⟨1, ![m]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the columns of an `[m, n]` array of extended reals, read at row `p`: the fold of `max`, from the
    accumulator's value, over that row's entries. -/
theorem multiReduction_maximumf_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.maximumf.neutral φ hφ) (p : Fin m) :
    multiReduction .maximumf [1] ⟨1, ![m]⟩ src acc h hφ hacc (ix1 p)
      = (Finset.univ : Finset (Fin n)).fold max (Ideal.ofBits φ acc) (fun k => src (ix2 p k)) :=
  (Ideal.multiReduction_maximumf_single src acc h hφ hacc (ix1 p)).trans
    (congrArg (fun f => (Finset.univ : Finset (Fin n)).fold max (Ideal.ofBits φ acc) f)
      (funext fun k => congrArg src (lift_row h p k)))

end Cert.MemAttn.Layout
-- ==== Proof.LibRowMin.lean ====
/-
  A row minimum, read at a row.

  A minimum taken over the columns of an `[m, n]` array of extended reals, read at row `p`, is the fold of `min`, from
  the accumulator's value, over the entries `(p, k)`, `k : Fin n`: on the extended reals a reduction has no order of
  evaluation left in it, so the fold may be taken over the row's coordinates in any order.
-/
import Idealize.ShloMosaic.Lib.ValueIdx
import Idealize.ShloMosaic.PureOps.Ideal.Laws
import Idealize.ShloMosaic.PureOps.Reduce

namespace Idealize.ShloMosaic.RowMin

open Idealize.ShloMosaic Idealize.ShloMosaic.ValueIdx

/-- Row `p` with the column coordinate `k` put back is the index `(p, k)`. -/
theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A minimum over the columns of an `[m, n]` array of extended reals, read at row `p`: the fold of `min`, from the
    accumulator's value, over that row's entries. -/
theorem multiReduction_minimumf_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.minimumf.neutral φ hφ) (p : Fin m) :
    multiReduction .minimumf [1] ⟨1, ![m]⟩ src acc h hφ hacc (ix1 p)
      = (Finset.univ : Finset (Fin n)).fold (FloatOps.minimumf (F := Ideal) (φ := φ)) (Ideal.ofBits φ acc)
          (fun k => src (ix2 p k)) := by
  rw [multiReduction_minimumf_eq_fold]
  refine (h.fold_filter_drop_single _ _ src (ix1 p)).trans ?_
  exact congrArg (fun f => (Finset.univ : Finset (Fin n)).fold (FloatOps.minimumf (F := Ideal) (φ := φ)) (Ideal.ofBits φ acc) f)
    (funext fun k => congrArg src (lift_row h p k))

end Idealize.ShloMosaic.RowMin
-- ==== Proof.KernelRow.lean ====
/-
  What the kernel's body computes for one row of its block.

  The body loads three `[256, 2048]` blocks — predictions `x0`, targets `x1`, the other samples' targets `x2` — and
  stores a `[256, 1]` column. Entry `(p, 0)` of that column depends on row `p` of each block only: it is the hinge
  loss of the three rows. The five row sums are sums over the 2048 column coordinates; a `[256]` vector viewed as the
  column `[256, 1]` keeps its entries; and the body's closeness test — the row minimum, from +∞, of 1-or-0 indicators,
  compared with 0 — is the conjunction of the row's comparison bits.
-/
import proofs.«170104_j2224793059461_1_alg».proof.Proof.Gen.KernelIdeal.Skeleton
import proofs.«170104_j2224793059461_1_alg».proof.Proof.HingeRow
import proofs.«170104_j2224793059461_1_alg».proof.Proof.LibKeepdims
import proofs.«170104_j2224793059461_1_alg».proof.Proof.LibRowMin
import Idealize.ShloMosaic.Lib.Pipeline.Value
import Idealize.ShloMosaic.Lib.ValueIdx
import Idealize.ShloMosaic.PureOps.Ideal.Laws

noncomputable section

namespace Cert.KernelIdeal.RowValue

open Cert.KernelIdeal Cert.KernelIdeal.Gen Cert.Hinge
open Idealize.ShloMosaic Idealize.ShloMosaic.ValueIdx

/-! ## Pointwise operations on the extended reals, read at an index -/

theorem sofBits (b : BitVec 32) : Scalar.ofBits (F := Ideal) .f32 b = Ideal.ofBits .f32 b := rfl
theorem sqrt_at {s : Shape} (a : FVec Ideal s .f32) (i : s.Idx) : sqrt a i = Ideal.sqrt (a i) := rfl
theorem absf_at {s : Shape} (a : FVec Ideal s .f32) (i : s.Idx) : absf a i = max (a i) (-(a i)) := rfl
theorem cmpf_at {s : Shape} (q : CmpFPredicate) (a b : FVec Ideal s .f32) (i : s.Idx) :
    cmpf q a b i = Ideal.cmp q (a i) (b i) := rfl

/-- Row `p` of a block. -/
abbrev rowOf (x : Vec Ideal S256x2048 .f32) (p : Fin 256) : Fin 2048 → EReal := fun k => x (ix2 p k)

/-- The cast of a block to its own shape changes nothing. -/
theorem pay2_eq (v2 : Vec Ideal S256x2048 .f32) : k0_pay2 (F := Ideal) v2 = v2 := shapeCast_self v2 _

/-- A row sum of products kept as a column, read at `(p, u)`: the dot product of the two rows. -/
theorem rowDot (x y : Vec Ideal S256x2048 .f32) (p : Fin 256) (u : Fin 1) :
    shapeCast S256x1 (multiReduction (F := Ideal) .add [1] S256 (mulf x y) 0x00000000#32 Facts₀.reduces_S256x2048_S256 (.inl rfl) rfl)
      Facts₀.shapeCasts_S256_S256x1 (ix2 p u) = dot (rowOf x p) (rowOf y p) :=
  (Cert.MemAttn.Layout.shapeCast_a_a1_apply _ Facts₀.shapeCasts_S256_S256x1 p u).trans
    (Cert.MemAttn.Layout.multiReduction_add_row (mulf x y) 0x00000000#32 Facts₀.reduces_S256x2048_S256 (.inl rfl) rfl p)

/-- The clamped norm of the predictions' row. -/
theorem pay3_row (x0 : Vec Ideal S256x2048 .f32) (p : Fin 256) (u : Fin 1) :
    k0_pay3 (F := Ideal) x0 (ix2 p u) = nrm (rowOf x0 p) := by
  unfold k0_pay3
  simp only [maximumf_apply, sqrt_at, broadcast_apply, sofBits]
  exact congrArg (fun s => max (Ideal.sqrt s) (Ideal.ofBits .f32 0x358637BD#32)) (rowDot x0 x0 p u)

/-- The cosine of a sample's own target against its prediction. -/
theorem pay4_row (x0 x1 : Vec Ideal S256x2048 .f32) (p : Fin 256) (u : Fin 1) :
    k0_pay4 (F := Ideal) x0 x1 (ix2 p u) = cosine (rowOf x1 p) (rowOf x0 p) := by
  unfold k0_pay4
  simp only [divf_apply, mulf_apply, maximumf_apply, sqrt_at, broadcast_apply, sofBits, pay3_row]
  exact congr (congrArg Ideal.div (rowDot x1 x0 p u))
    (congrArg (fun s => max (Ideal.sqrt s) (Ideal.ofBits .f32 0x358637BD#32) * nrm (rowOf x0 p)) (rowDot x1 x1 p u))

/-- The cosine of the other sample's target against the prediction. -/
theorem pay5_row (x0 x2 : Vec Ideal S256x2048 .f32) (p : Fin 256) (u : Fin 1) :
    k0_pay5 (F := Ideal) x0 x2 (ix2 p u) = cosine (rowOf x2 p) (rowOf x0 p) := by
  unfold k0_pay5
  rw [pay2_eq]
  simp only [divf_apply, mulf_apply, maximumf_apply, sqrt_at, broadcast_apply, sofBits, pay3_row]
  exact congr (congrArg Ideal.div (rowDot x2 x0 p u))
    (congrArg (fun s => max (Ideal.sqrt s) (Ideal.ofBits .f32 0x358637BD#32) * nrm (rowOf x0 p)) (rowDot x2 x2 p u))

/-- The comparison bit at `(p, k)`: is the other target close to the own target there. -/
theorem pay6_at (x1 x2 : Vec Ideal S256x2048 .f32) (p : Fin 256) (k : Fin 2048) :
    k0_pay6 (F := Ideal) x1 x2 (ix2 p k) = closeBit (rowOf x1 p) (rowOf x2 p) k := by
  unfold k0_pay6
  rw [pay2_eq]
  simp only [cmpf_at, absf_at, subf_apply, addf_apply, mulf_apply, broadcast_apply, sofBits]
  rfl

/-- The indicator vector of a block's comparison bits: 1 where the bit is set, 0 elsewhere. -/
abbrev indicator (v39 : IVec S256x2048 1) : FVec Ideal S256x2048 .f32 :=
  select v39 (broadcast S256x2048 (Ideal.ofBits .f32 0x3F800000#32)) (broadcast S256x2048 (Ideal.ofBits .f32 0x00000000#32))

/-- The row minima of the indicators, from +∞. -/
abbrev rowMin (v39 : IVec S256x2048 1) : FVec Ideal S256 .f32 :=
  multiReduction (F := Ideal) .minimumf [1] S256 (indicator v39) 0x7F800000#32 Facts₀.reduces_S256x2048_S256 (.inl rfl) rfl

/-- A comparison of a vector with a splat, read at an entry. -/
theorem cmp_splat_at (M : FVec Ideal S256 .f32) (z : EReal) (i : S256.Idx) :
    cmpf .ogt M (broadcast S256 z) i = Ideal.cmp .ogt (M i) z := rfl

/-- The row minimum at row `p`: the fold of `min` from +∞ over the row's indicators. -/
theorem rowMin_at (v39 : IVec S256x2048 1) (p : Fin 256) :
    rowMin v39 (ix1 p)
      = (Finset.univ : Finset (Fin 2048)).fold (FloatOps.minimumf (F := Ideal) (φ := .f32)) (Ideal.ofBits .f32 0x7F800000#32)
          (fun k => indicator v39 (ix2 p k)) :=
  RowMin.multiReduction_minimumf_row (indicator v39) 0x7F800000#32 Facts₀.reduces_S256x2048_S256 (.inl rfl) rfl p

/-- That fold is positive exactly when every bit of the row is set. -/
theorem rowMin_pos (v39 : IVec S256x2048 1) (p : Fin 256) :
    Ideal.cmp .ogt ((Finset.univ : Finset (Fin 2048)).fold (FloatOps.minimumf (F := Ideal) (φ := .f32)) (Ideal.ofBits .f32 0x7F800000#32)
          (fun k => indicator v39 (ix2 p k))) (Ideal.ofBits .f32 0x00000000#32)
      = (Finset.univ : Finset (Fin 2048)).fold IntOp.andi 1#1 (fun k => v39 (ix2 p k)) :=
  minFold_pos_eq_andFold Finset.univ (fun k => v39 (ix2 p k))

/-- The body's closeness test at row `p` — the row minimum, from +∞, of the indicators, compared with 0, kept as a
    column — is the conjunction of the row's bits. -/
theorem sameBit (v39 : IVec S256x2048 1) (p : Fin 256) (u : Fin 1) :
    shapeCast S256x1 (cmpf .ogt (rowMin v39) (broadcast S256 (Ideal.ofBits .f32 0x00000000#32)))
        Facts₀.shapeCasts_S256_S256x1 (ix2 p u)
      = (Finset.univ : Finset (Fin 2048)).fold IntOp.andi 1#1 (fun k => v39 (ix2 p k)) :=
  (Cert.MemAttn.Layout.shapeCast_a_a1_apply _ Facts₀.shapeCasts_S256_S256x1 p u).trans
    ((cmp_splat_at (rowMin v39) (Ideal.ofBits .f32 0x00000000#32) (ix1 p)).trans
      ((congrArg (fun s => Ideal.cmp .ogt s (Ideal.ofBits .f32 0x00000000#32)) (rowMin_at v39 p)).trans (rowMin_pos v39 p)))

/-- The shape of the body's last lines, over any bit column and any terms: select, subtract, add, clamp — at an entry. -/
theorem store_shape (c : IVec S256x1 1) (A B x y z : FVec Ideal S256x1 .f32) (i : S256x1.Idx) :
    maximumf (addf (subf (select c A B) x) y) z i
      = max (Scalar.select (c i) (A i) (B i) - x i + y i) (z i) := by
  simp only [maximumf_apply, addf_apply, subf_apply]
  rw [select_apply]

/-- The stored value at `(p, u)`, from the two cosines and the comparison bits. -/
theorem pay1_row (v29 v31 : FVec Ideal S256x1 .f32) (v39 : IVec S256x2048 1) (p : Fin 256) (u : Fin 1) :
    k0_pay1 (F := Ideal) v29 v31 v39 (Scalar.ofBits .f32 0x00000000#32) k0_pay7 (ix2 p u)
      = max (margin ((Finset.univ : Finset (Fin 2048)).fold IntOp.andi 1#1 (fun k => v39 (ix2 p k)))
          - v29 (ix2 p u) + v31 (ix2 p u)) zero := by
  unfold k0_pay1 k0_pay7
  refine (store_shape _ _ _ _ _ _ _).trans ?_
  simp only [broadcast_apply, sofBits]
  exact congrArg (fun s => max (Scalar.select s (Ideal.ofBits .f32 0xBF000000#32) (Ideal.ofBits .f32 0x3F000000#32)
      - v29 (ix2 p u) + v31 (ix2 p u)) (Ideal.ofBits .f32 0x00000000#32)) (sameBit v39 p u)

/-- THE BODY, ROW BY ROW: the stored column's entry `(p, u)` is the hinge loss of row `p` of the three blocks. -/
theorem body_row (x0 x1 x2 : Vec Ideal S256x2048 .f32) (p : Fin 256) (u : Fin 1) :
    k0_pay1 (F := Ideal) (k0_pay4 x0 x1) (k0_pay5 x0 x2) (k0_pay6 x1 x2) (Scalar.ofBits .f32 0x00000000#32) k0_pay7 (ix2 p u)
      = rowLoss (rowOf x0 p) (rowOf x1 p) (rowOf x2 p) := by
  have e6 : (fun k => k0_pay6 (F := Ideal) x1 x2 (ix2 p k)) = closeBit (rowOf x1 p) (rowOf x2 p) :=
    funext fun k => pay6_at x1 x2 p k
  rw [pay1_row, pay4_row, pay5_row, e6]
  rfl

end Cert.KernelIdeal.RowValue

end
-- ==== Proof.KernelArray.lean ====
/-
  The kernel's output array, as one function of the arrays it reads.

  The grid has 64 points; point `t` reads rows `256 t … 256 t + 255` of three `[16384, 2048]` arrays — the
  predictions, the targets, and the targets gathered by partner index — and writes rows `256 t … 256 t + 255` of the
  `[16384, 1]` loss column. Since entry `(p, 0)` of what a point writes is the hinge loss of row `p` of its three
  blocks, and the 64 blocks of 256 rows tile the 16384 rows (row `i` lies in block `i / 256`), the column ends
  holding, at `(i, 0)`, the hinge loss of row `i` of the three arrays.
-/
import proofs.«170104_j2224793059461_1_alg».proof.Proof.Gen.KernelIdeal.Frame
import proofs.«170104_j2224793059461_1_alg».proof.Proof.KernelRow
import Idealize.ShloMosaic.Lib.Pipeline.Value

noncomputable section

namespace Cert.KernelIdeal.ArrayValue

open Cert.KernelIdeal Cert.KernelIdeal.Gen Cert.KernelIdeal.RowValue Cert.Hinge
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Row `r` of a `[16384, 2048]` array. -/
abbrev rowAt (a : S16384x2048.Idx → EReal) (r : Fin 16384) : Fin 2048 → EReal := fun k => a (ix2 r k)

/-- The row coordinate of an index of the loss column. -/
abbrev rowIx (i : S16384x1.Idx) : Fin 16384 := ⟨(i 0).val, idx2_lt0 i⟩

/-- THE LOSS COLUMN of three arrays: at `(i, 0)` the hinge loss of their rows `i`. -/
def lossCol (a0 a1 a2 : S16384x2048.Idx → EReal) : S16384x1.Idx → EReal :=
  fun i => rowLoss (rowAt a0 (rowIx i)) (rowAt a1 (rowIx i)) (rowAt a2 (rowIx i))

theorem hz : (![0, 0] : Fin 2 → Nat) = fun _ => 0 := funext fun a => by fin_cases a <;> rfl

/-- The printed index maps, decided over the 64 points: every window's block row is the point's number, its block
    column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Every block row `q < 64` is SOME point's. -/
theorem idx_onto : ∀ q : Fin 64, ∃ t : Fin cfg0.N, win0_3.index t (0 : Fin 2) = q.val ∧ win0_3.index t (1 : Fin 2) = 0 :=
  (by decide +kernel : ∀ q : Fin 64, ∃ t : Fin grid0.N, win0_3.index t (0 : Fin 2) = q.val ∧ win0_3.index t (1 : Fin 2) = 0)

/-- Row `p` of an input window's block at point `t` is row `256 t + p` of its array — the row that the output's block
    puts at `(p, u)`. One statement per input window (a window's block type is its own). -/
theorem blockRow0 (c : Dev nD) (t : Fin cfg0.N) (p : Fin 256) (u : Fin 1) (k : Fin 2048) :
    (((cfg0.win 0).blk t).view.emb (ix2 p k) : S16384x2048.Idx)
      = ix2 (rowIx (((cfg0.win 3).blk t).view.emb (ix2 p u))) k := by
  obtain ⟨e00, e01, e10, e11, e20, e21, e30, e31⟩ := idx_facts t
  funext a; apply Fin.ext
  match a with
  | ⟨0, _⟩ =>
    show win0_0.index t (0 : Fin 2) * 256 + 1 * p.val = win0_3.index t (0 : Fin 2) * 256 + 1 * p.val
    omega
  | ⟨1, _⟩ =>
    show win0_0.index t (1 : Fin 2) * 2048 + 1 * k.val = k.val
    omega

theorem blockRow1 (c : Dev nD) (t : Fin cfg0.N) (p : Fin 256) (u : Fin 1) (k : Fin 2048) :
    (((cfg0.win 1).blk t).view.emb (ix2 p k) : S16384x2048.Idx)
      = ix2 (rowIx (((cfg0.win 3).blk t).view.emb (ix2 p u))) k := by
  obtain ⟨e00, e01, e10, e11, e20, e21, e30, e31⟩ := idx_facts t
  funext a; apply Fin.ext
  match a with
  | ⟨0, _⟩ =>
    show win0_1.index t (0 : Fin 2) * 256 + 1 * p.val = win0_3.index t (0 : Fin 2) * 256 + 1 * p.val
    omega
  | ⟨1, _⟩ =>
    show win0_1.index t (1 : Fin 2) * 2048 + 1 * k.val = k.val
    omega

theorem blockRow2 (c : Dev nD) (t : Fin cfg0.N) (p : Fin 256) (u : Fin 1) (k : Fin 2048) :
    (((cfg0.win 2).blk t).view.emb (ix2 p k) : S16384x2048.Idx)
      = ix2 (rowIx (((cfg0.win 3).blk t).view.emb (ix2 p u))) k := by
  obtain ⟨e00, e01, e10, e11, e20, e21, e30, e31⟩ := idx_facts t
  funext a; apply Fin.ext
  match a with
  | ⟨0, _⟩ =>
    show win0_2.index t (0 : Fin 2) * 256 + 1 * p.val = win0_3.index t (0 : Fin 2) * 256 + 1 * p.val
    omega
  | ⟨1, _⟩ =>
    show win0_2.index t (1 : Fin 2) * 2048 + 1 * k.val = k.val
    omega

/-- WHAT POINT `t` WRITES BACK is block `t` of the loss column of the three arrays as the region finds them. -/
theorem flushed_eq (c : Dev nD) (t : Fin cfg0.N) :
    (dats m 0 c).flushed 3 t = ((cfg0.win 3).blk t).view.read (Elt Ideal)
      (lossCol (V m c main_arg0) (V m c main_arg1) (V m c main_v6)) := by
  show (cfg0.win 3).cut (grid0.coords t) ((dats m 0 c).after 3 t) = _
  rw [after0_3]
  unfold out0_3
  rw [View.canon_unit_zero hz]
  simp only [View.ld_unit_zero (S := S256x2048) hz]
  funext y
  obtain ⟨p, u, rfl⟩ : ∃ (p : Fin 256) (u : Fin 1), y = ix2 p u := ⟨y 0, y 1, eq_ix2 y⟩
  refine (body_row (iblk m c 0 t) (iblk m c 1 t) (iblk m c 2 t) p u).trans ?_
  show rowLoss (fun k => V m c main_arg0 (((cfg0.win 0).blk t).view.emb (ix2 p k)))
      (fun k => V m c main_arg1 (((cfg0.win 1).blk t).view.emb (ix2 p k)))
      (fun k => V m c main_v6 (((cfg0.win 2).blk t).view.emb (ix2 p k)))
    = rowLoss (fun k => V m c main_arg0 (ix2 (rowIx (((cfg0.win 3).blk t).view.emb (ix2 p u))) k))
      (fun k => V m c main_arg1 (ix2 (rowIx (((cfg0.win 3).blk t).view.emb (ix2 p u))) k))
      (fun k => V m c main_v6 (ix2 (rowIx (((cfg0.win 3).blk t).view.emb (ix2 p u))) k))
  have h0 : ∀ k : Fin 2048, ((cfg0.win 0).blk t).view.emb (ix2 p k) = (ix2 (rowIx (((cfg0.win 3).blk t).view.emb (ix2 p u))) k : S16384x2048.Idx) :=
    fun k => blockRow0 c t p u k
  have h1 : ∀ k : Fin 2048, ((cfg0.win 1).blk t).view.emb (ix2 p k) = (ix2 (rowIx (((cfg0.win 3).blk t).view.emb (ix2 p u))) k : S16384x2048.Idx) :=
    fun k => blockRow1 c t p u k
  have h2 : ∀ k : Fin 2048, ((cfg0.win 2).blk t).view.emb (ix2 p k) = (ix2 (rowIx (((cfg0.win 3).blk t).view.emb (ix2 p u))) k : S16384x2048.Idx) :=
    fun k => blockRow2 c t p u k
  simp only [h0, h1, h2]

/-- An index of the column is in point `t`'s block iff each coordinate is in the block's range on its axis. -/
theorem mem_blk (t : Fin cfg0.N) (i : S16384x1.Idx) :
    i ∈ ((cfg0.win 3).blk t).view.set ↔ ∀ a : Fin 2, win0_3.index t a * S256x1.size a ≤ (i a).val
      ∧ (i a).val < win0_3.index t a * S256x1.size a + S256x1.size a := by
  show i ∈ ((View.whole main_v7).slice (win0_3.rect t)).set ↔ _
  rw [View.set_slice_whole, Rect.mem_set_unit]
  exact Iff.rfl

/-- Every index of the column lies in the block of the point `i / 256`. -/
theorem cover (i : S16384x1.Idx) :
    ∃ t : Fin cfg0.N, (cfg0.win 3).flush t = true ∧ i ∈ ((cfg0.win 3).blk t).view.set := by
  have hi0 : (i 0).val < 16384 := idx2_lt0 i
  have hi1 : (i 1).val < 1 := idx2_lt1 i
  obtain ⟨t, q0, q1⟩ := idx_onto ⟨(i 0).val / 256, by omega⟩
  have q0' : win0_3.index t (0 : Fin 2) = (i 0).val / 256 := q0
  refine ⟨t, flush0_3 t, ?_⟩
  rw [mem_blk]
  intro a
  match a with
  | ⟨0, _⟩ =>
    show win0_3.index t (0 : Fin 2) * 256 ≤ (i 0).val ∧ (i 0).val < win0_3.index t (0 : Fin 2) * 256 + 256
    omega
  | ⟨1, _⟩ =>
    show win0_3.index t (1 : Fin 2) * 1 ≤ (i 1).val ∧ (i 1).val < win0_3.index t (1 : Fin 2) * 1 + 1
    omega

/-- THE ARRAY after the region: the loss column of the three arrays as the region finds them. -/
theorem final (c : Dev nD) :
    (dats m 0 c).arrAt 3 cfg0.N = lossCol (V m c main_arg0) (V m c main_arg1) (V m c main_v6) :=
  (dats m 0 c).arrAt_eq_of_cover 3 _ (fun t _ => flushed_eq m c t) cover

end Cert.KernelIdeal.ArrayValue

end
-- ==== Proof.KernelRun.lean ====
/-
  The kernel program's run, read back.

  Around its one region the program has host operations on both sides. Before it: the partner indices, a negative one
  wrapped by +16384, as a column of start indices, and the gather of the targets' rows at them — the third array the
  region reads. After it: the sum of the `[16384, 1]` loss column from 0, divided by 16384. The region leaves the loss
  column of (predictions, targets, gathered targets); so the result is the mean of the hinge losses of the rows.
-/
import proofs.«170104_j2224793059461_1_alg».proof.Proof.Gen.KernelIdeal.Frame
import proofs.«170104_j2224793059461_1_alg».proof.Proof.KernelArray
import Idealize.ShloMosaic.Lib.StableHlo.Run

noncomputable section

namespace Cert.KernelIdeal.RunValue

open Cert.KernelIdeal Cert.KernelIdeal.Gen Cert.KernelIdeal.ArrayValue Cert.Hinge
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The partner indices, a negative one wrapped by `+16384`, as the column of start indices. -/
def startIdx (j : IVec S16384 32) : IVec S16384x1 32 :=
  broadcastInDim S16384x1 ![0] Facts₀.bcast_S16384_S16384x1_0
    (select (cmpi .slt j (broadcastInDim S16384 ![] Facts₀.bcast_S_S16384 (constantI S_ 32 0#32)))
      (addi j (broadcastInDim S16384 ![] Facts₀.bcast_S_S16384 (constantI S_ 32 16384#32))) j)

/-- The rows of `t` at the partner indices. -/
def gathered (t : FVec Ideal S16384x2048 .f32) (j : IVec S16384 32) : FVec Ideal S16384x2048 .f32 :=
  Host.gather gather_S16384x2048_S16384x1_S16384x2048_1_0_n_n_0_1_12048 t (startIdx j)

/-- The host operations after the region, as a function of the loss column: its sum from 0, divided by 16384. -/
def meanOf (X : FVec Ideal S16384x1 .f32) : FVec Ideal S_ .f32 :=
  Host.divf (F := Ideal) (Host.reduceAdd (F := Ideal) X (constant S_ .f32 0x00000000#32)
    Facts₀.reducesTo_S16384x1_S_d0_1 Facts₀.h_S_) (constant S_ .f32 0x46800000#32)

/-- The program's result as a function of its arguments. -/
def meanK (o t : FVec Ideal S16384x2048 .f32) (j : IVec S16384 32) : FVec Ideal S_ .f32 :=
  meanOf (lossCol o t (gathered t j))

/-- The third array as the region finds it: the host's gather of the targets' rows. -/
theorem V_gathered (c : Dev nD) :
    (V m c main_v6 : S16384x2048.Idx → EReal)
      = gathered (m ((c : Thread nD τ).loc main_arg1)) (m ((c : Thread nD τ).loc main_arg2)) := by
  show StableHlo.after hostOps0 (fun b => m (c, b)) (Proc.devRef .tc main_v6) = _
  after_results
  rfl

/-- The result buffer after the host operations that follow the region: the final loss column summed and divided. -/
theorem tail_result (c : Dev nD) :
    (Pipeline.afterTail₀ cfgs (dats m) 0 (V0 m) [hostOps1] c main_v9 : FVec Ideal S_ .f32)
      = meanOf ((dats m 0 c).arrAt 3 cfg0.N) := by
  unfold Pipeline.afterTail₀
  show StableHlo.after hostOps1 _ (Proc.devRef .tc main_v9) = _
  after_results
  exact congrArg meanOf
    (Pipeline.withArrays_arr spec0 launch0.win.arr_inj c (V0 m c) (fun w => (dats m 0 c).arrAt w cfg0.N) 3)

/-- The result buffer, as a function of the arguments. -/
theorem result_eq (c : Dev nD) :
    (Pipeline.afterTail₀ cfgs (dats m) 0 (V0 m) [hostOps1] c main_v9 : FVec Ideal S_ .f32)
      = meanK (m ((c : Thread nD τ).loc main_arg0)) (m ((c : Thread nD τ).loc main_arg1)) (m ((c : Thread nD τ).loc main_arg2)) := by
  rw [tail_result, ArrayValue.final, V_main_arg0, V_main_arg1, V_gathered]
  rfl

/-- THE RUN: the result at `meanK` of the arguments, the arguments unchanged. -/
theorem run : θ_run defs (onTc (τ := τ) (main (F := Ideal))) ⟨m, fun _ => 0, ρ⟩ fun r => ∀ c : Dev nD,
      r.2.mem ((c.tc : Thread nD τ).loc main_v9)
        = meanK (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v9 (Pipeline.mem_restRefs_of main_v9 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.RunValue

end
-- ==== Proof.RefRun.lean ====
/-
  The reference program's run, read back.

  The reference is a straight line of 69 host operations (its three helper functions — the row norm, the select and
  the clamp at zero — stand inline at their calls, over each call's own buffers). Run from any memory, every weakly
  fair execution terminates, the arguments end unchanged, and the result buffer holds the operations' composed term
  of the arguments. That term is named here in stages:

    startIdx j      the partner indices with negative ones wrapped by +16384, as the column [16384, 1];
    normV x         the clamped row norms  max (√(∑ₖ x[i,k]²)) ε;
    gatherRows t j  the rows of t at the partner indices;  gatherNorm t j  the ENTRIES of normV t at the same indices;
    cosV y a ny na  (∑ₖ y[i,k] a[i,k]) / (ny[i] · na[i]);
    sameV t tj      for each row, the conjunction over k of |tj − t| ≤ atol + rtol · |t|;
    lossV o t j     max (±1/2 − cos(t, o) + cos(tⱼ, o)) 0  per row;   meanV o t j  its sum divided by 16384.
-/
import proofs.«170104_j2224793059461_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The result, in stages -/

/-- The partner indices, a negative one wrapped by `+16384`, as the column of start indices. -/
def startIdx (j : IVec S16384 32) : IVec S16384x1 32 :=
  broadcastInDim S16384x1 ![0] bcast_S16384_S16384x1_0
    (select (cmpi .slt j (broadcastInDim S16384 ![] bcast_S_S16384 (constantI S_ 32 0#32)))
      (addi j (broadcastInDim S16384 ![] bcast_S_S16384 (constantI S_ 32 16384#32))) j)

/-- The clamped norm of every row. -/
def normV (x : FVec F S16384x2048 .f32) : FVec F S16384 .f32 :=
  maximumf (Host.sqrt (Host.reduceAdd (mulf x x) (constant S_ .f32 0x00000000#32) reducesTo_S16384x2048_S16384_d1 h_S_))
    (broadcastInDim S16384 ![] bcast_S_S16384 (constant S_ .f32 0x358637BD#32))

/-- The rows of `t` at the partner indices. -/
def gatherRows (t : FVec F S16384x2048 .f32) (j : IVec S16384 32) : FVec F S16384x2048 .f32 :=
  Host.gather gather_S16384x2048_S16384x1_S16384x2048_1_0_n_n_0_1_12048 t (startIdx j)

/-- The clamped norms of `t`'s rows, taken at the partner indices. -/
def gatherNorm (t : FVec F S16384x2048 .f32) (j : IVec S16384 32) : FVec F S16384 .f32 :=
  Host.gather gather_S16384_S16384x1_S16384_n_0_n_n_0_1_1 (normV t) (startIdx j)

/-- Row by row, `(∑ₖ y a) / (ny · na)`. -/
def cosV (y a : FVec F S16384x2048 .f32) (ny na : FVec F S16384 .f32) : FVec F S16384 .f32 :=
  Host.divf (Host.reduceAdd (mulf y a) (constant S_ .f32 0x00000000#32) reducesTo_S16384x2048_S16384_d1 h_S_) (mulf ny na)

/-- Row by row, is `tj` entrywise close to `t`. -/
def sameV (t tj : FVec F S16384x2048 .f32) : IVec S16384 1 :=
  Host.reduce IntOp.andi
    (cmpf .ole (Host.absf (subf tj t))
      (addf (broadcastInDim S16384x2048 ![] bcast_S_S16384x2048 (constant S_ .f32 0x322BCC77#32))
        (mulf (broadcastInDim S16384x2048 ![] bcast_S_S16384x2048 (constant S_ .f32 0x3727C5AC#32)) (Host.absf t))))
    (constantI S_ 1 1#1) reducesTo_S16384x2048_S16384_d1 h_S_

/-- The per-sample losses. -/
def lossV (o t : FVec F S16384x2048 .f32) (j : IVec S16384 32) : FVec F S16384 .f32 :=
  maximumf
    (addf
      (subf
        (id (select (sameV t (gatherRows t j))
          (broadcastInDim S16384 ![] bcast_S_S16384 (constant S_ .f32 0xBF000000#32))
          (broadcastInDim S16384 ![] bcast_S_S16384 (constant S_ .f32 0x3F000000#32))))
        (cosV t o (normV t) (normV o)))
      (cosV (gatherRows t j) o (gatherNorm t j) (normV o)))
    (broadcastInDim S16384 ![] bcast_S_S16384 (constant S_ .f32 0x00000000#32))

/-- Their mean. -/
def meanV (o t : FVec F S16384x2048 .f32) (j : IVec S16384 32) : FVec F S_ .f32 :=
  Host.divf (Host.reduceAdd (lossV o t j) (constant S_ .f32 0x00000000#32) reducesTo_S16384_S_d0 h_S_)
    (constant S_ .f32 0x46800000#32)

/-! ## The program as a list of operations, and its run -/

/-- @main's 69 operations, in order; a called function's operations stand in its call's place, over that call's buffers. -/
abbrev ops : List (HloOp τ sig (Elt F)) :=
  [ binary main_arg0 main_arg0 main_call0_v0 (mulf : (⟨S16384x2048, .f32⟩ : BufTy).Contents (Elt F) → (⟨S16384x2048, .f32⟩ : BufTy).Contents (Elt F) → (⟨S16384x2048, .f32⟩ : BufTy).Contents (Elt F)),
    nullary main_call0_cst (constant S_ .f32 0x00000000#32),
    binary main_call0_v0 main_call0_cst main_call0_v1 ((fun x v => Host.reduceAdd x v reducesTo_S16384x2048_S16384_d1 h_S_) : (⟨S16384x2048, .f32⟩ : BufTy).Contents (Elt F) → (⟨S_, .f32⟩ : BufTy).Contents (Elt F) → (⟨S16384, .f32⟩ : BufTy).Contents (Elt F)),
    unary main_call0_v1 main_v0 (Host.sqrt : (⟨S16384, .f32⟩ : BufTy).Contents (Elt F) → (⟨S16384, .f32⟩ : BufTy).Contents (Elt F)),
    nullary main_cst (constant S_ .f32 0x358637BD#32),
    unary main_cst main_v1 (broadcastInDim S16384 ![] bcast_S_S16384 : (⟨S_, .f32⟩ : BufTy).Contents (Elt F) → (⟨S16384, .f32⟩ : BufTy).Contents (Elt F)),
    binary main_v0 main_v1 main_v2 (maximumf : (⟨S16384, .f32⟩ : BufTy).Contents (Elt F) → (⟨S16384, .f32⟩ : BufTy).Contents (Elt F) → (⟨S16384, .f32⟩ : BufTy).Contents (Elt F)),
    binary main_arg1 main_arg1 main_call1_v0 (mulf : (⟨S16384x2048, .f32⟩ : BufTy).Contents (Elt F) → (⟨S16384x2048, .f32⟩ : BufTy).Contents (Elt F) → (⟨S16384x2048, .f32⟩ : BufTy).Contents (Elt F)),
    nullary main_call1_cst (constant S_ .f32 0x00000000#32),
    binary main_call1_v0 main_call1_cst main_call1_v1 ((fun x v => Host.reduceAdd x v reducesTo_S16384x2048_S16384_d1 h_S_) : (⟨S16384x2048, .f32⟩ : BufTy).Contents (Elt F) → (⟨S_, .f32⟩ : BufTy).Contents (Elt F) → (⟨S16384, .f32⟩ : BufTy).Contents (Elt F)),
    unary main_call1_v1 main_v3 (Host.sqrt : (⟨S16384, .f32⟩ : BufTy).Contents (Elt F) → (⟨S16384, .f32⟩ : BufTy).Contents (Elt F)),
    nullary main_cst_0 (constant S_ .f32 0x358637BD#32),
    unary main_cst_0 main_v4 (broadcastInDim S16384 ![] bcast_S_S16384 : (⟨S_, .f32⟩ : BufTy).Contents (Elt F) → (⟨S16384, .f32⟩ : BufTy).Contents (Elt F)),
    binary main_v3 main_v4 main_v5 (maximumf : (⟨S16384, .f32⟩ : BufTy).Contents (Elt F) → (⟨S16384, .f32⟩ : BufTy).Contents (Elt F) → (⟨S16384, .f32⟩ : BufTy).Contents (Elt F)),
    nullary main_c (constantI S_ 32 0#32),
    unary main_c main_v6 (broadcastInDim S16384 ![] bcast_S_S16384 : (⟨S_, .i32⟩ : BufTy).Contents (Elt F) → (⟨S16384, .i32⟩ : BufTy).Contents (Elt F)),
    binary main_arg2 main_v6 main_v7 (cmpi .slt : (⟨S16384, .i32⟩ : BufTy).Contents (Elt F) → (⟨S16384, .i32⟩ : BufTy).Contents (Elt F) → (⟨S16384, .i1⟩ : BufTy).Contents (Elt F)),
    nullary main_c_1 (constantI S_ 32 16384#32),
    unary main_c_1 main_v8 (broadcastInDim S16384 ![] bcast_S_S16384 : (⟨S_, .i32⟩ : BufTy).Contents (Elt F) → (⟨S16384, .i32⟩ : BufTy).Contents (Elt F)),
    binary main_arg2 main_v8 main_v9 (addi : (⟨S16384, .i32⟩ : BufTy).Contents (Elt F) → (⟨S16384, .i32⟩ : BufTy).Contents (Elt F) → (⟨S16384, .i32⟩ : BufTy).Contents (Elt F)),
    ternary main_v7 main_v9 main_arg2 main_v10 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v10 main_v11 (broadcastInDim S16384x1 ![0] bcast_S16384_S16384x1_0 : (⟨S16384, .i32⟩ : BufTy).Contents (Elt F) → (⟨S16384x1, .i32⟩ : BufTy).Contents (Elt F)),
    binary main_arg1 main_v11 main_v12 ((fun x i => Host.gather gather_S16384x2048_S16384x1_S16384x2048_1_0_n_n_0_1_12048 x i) : (⟨S16384x2048, .f32⟩ : BufTy).Contents (Elt F) → (⟨S16384x1, .i32⟩ : BufTy).Contents (Elt F) → (⟨S16384x2048, .f32⟩ : BufTy).Contents (Elt F)),
    nullary main_c_2 (constantI S_ 32 0#32),
    unary main_c_2 main_v13 (broadcastInDim S16384 ![] bcast_S_S16384 : (⟨S_, .i32⟩ : BufTy).Contents (Elt F) → (⟨S16384, .i32⟩ : BufTy).Contents (Elt F)),
    binary main_arg2 main_v13 main_v14 (cmpi .slt : (⟨S16384, .i32⟩ : BufTy).Contents (Elt F) → (⟨S16384, .i32⟩ : BufTy).Contents (Elt F) → (⟨S16384, .i1⟩ : BufTy).Contents (Elt F)),
    nullary main_c_3 (constantI S_ 32 16384#32),
    unary main_c_3 main_v15 (broadcastInDim S16384 ![] bcast_S_S16384 : (⟨S_, .i32⟩ : BufTy).Contents (Elt F) → (⟨S16384, .i32⟩ : BufTy).Contents (Elt F)),
    binary main_arg2 main_v15 main_v16 (addi : (⟨S16384, .i32⟩ : BufTy).Contents (Elt F) → (⟨S16384, .i32⟩ : BufTy).Contents (Elt F) → (⟨S16384, .i32⟩ : BufTy).Contents (Elt F)),
    ternary main_v14 main_v16 main_arg2 main_v17 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v17 main_v18 (broadcastInDim S16384x1 ![0] bcast_S16384_S16384x1_0 : (⟨S16384, .i32⟩ : BufTy).Contents (Elt F) → (⟨S16384x1, .i32⟩ : BufTy).Contents (Elt F)),
    binary main_v5 main_v18 main_v19 ((fun x i => Host.gather gather_S16384_S16384x1_S16384_n_0_n_n_0_1_1 x i) : (⟨S16384, .f32⟩ : BufTy).Contents (Elt F) → (⟨S16384x1, .i32⟩ : BufTy).Contents (Elt F) → (⟨S16384, .f32⟩ : BufTy).Contents (Elt F)),
    binary main_arg1 main_arg0 main_v20 (mulf : (⟨S16384x2048, .f32⟩ : BufTy).Contents (Elt F) → (⟨S16384x2048, .f32⟩ : BufTy).Contents (Elt F) → (⟨S16384x2048, .f32⟩ : BufTy).Contents (Elt F)),
    nullary main_cst_4 (constant S_ .f32 0x00000000#32),
    binary main_v20 main_cst_4 main_v21 ((fun x v => Host.reduceAdd x v reducesTo_S16384x2048_S16384_d1 h_S_) : (⟨S16384x2048, .f32⟩ : BufTy).Contents (Elt F) → (⟨S_, .f32⟩ : BufTy).Contents (Elt F) → (⟨S16384, .f32⟩ : BufTy).Contents (Elt F)),
    binary main_v5 main_v2 main_v22 (mulf : (⟨S16384, .f32⟩ : BufTy).Contents (Elt F) → (⟨S16384, .f32⟩ : BufTy).Contents (Elt F) → (⟨S16384, .f32⟩ : BufTy).Contents (Elt F)),
    binary main_v21 main_v22 main_v23 (Host.divf : (⟨S16384, .f32⟩ : BufTy).Contents (Elt F) → (⟨S16384, .f32⟩ : BufTy).Contents (Elt F) → (⟨S16384, .f32⟩ : BufTy).Contents (Elt F)),
    binary main_v12 main_arg0 main_v24 (mulf : (⟨S16384x2048, .f32⟩ : BufTy).Contents (Elt F) → (⟨S16384x2048, .f32⟩ : BufTy).Contents (Elt F) → (⟨S16384x2048, .f32⟩ : BufTy).Contents (Elt F)),
    nullary main_cst_5 (constant S_ .f32 0x00000000#32),
    binary main_v24 main_cst_5 main_v25 ((fun x v => Host.reduceAdd x v reducesTo_S16384x2048_S16384_d1 h_S_) : (⟨S16384x2048, .f32⟩ : BufTy).Contents (Elt F) → (⟨S_, .f32⟩ : BufTy).Contents (Elt F) → (⟨S16384, .f32⟩ : BufTy).Contents (Elt F)),
    binary main_v19 main_v2 main_v26 (mulf : (⟨S16384, .f32⟩ : BufTy).Contents (Elt F) → (⟨S16384, .f32⟩ : BufTy).Contents (Elt F) → (⟨S16384, .f32⟩ : BufTy).Contents (Elt F)),
    binary main_v25 main_v26 main_v27 (Host.divf : (⟨S16384, .f32⟩ : BufTy).Contents (Elt F) → (⟨S16384, .f32⟩ : BufTy).Contents (Elt F) → (⟨S16384, .f32⟩ : BufTy).Contents (Elt F)),
    binary main_v12 main_arg1 main_v28 (subf : (⟨S16384x2048, .f32⟩ : BufTy).Contents (Elt F) → (⟨S16384x2048, .f32⟩ : BufTy).Contents (Elt F) → (⟨S16384x2048, .f32⟩ : BufTy).Contents (Elt F)),
    unary main_v28 main_v29 (Host.absf : (⟨S16384x2048, .f32⟩ : BufTy).Contents (Elt F) → (⟨S16384x2048, .f32⟩ : BufTy).Contents (Elt F)),
    unary main_arg1 main_v30 (Host.absf : (⟨S16384x2048, .f32⟩ : BufTy).Contents (Elt F) → (⟨S16384x2048, .f32⟩ : BufTy).Contents (Elt F)),
    nullary main_cst_6 (constant S_ .f32 0x3727C5AC#32),
    unary main_cst_6 main_v31 (broadcastInDim S16384x2048 ![] bcast_S_S16384x2048 : (⟨S_, .f32⟩ : BufTy).Contents (Elt F) → (⟨S16384x2048, .f32⟩ : BufTy).Contents (Elt F)),
    binary main_v31 main_v30 main_v32 (mulf : (⟨S16384x2048, .f32⟩ : BufTy).Contents (Elt F) → (⟨S16384x2048, .f32⟩ : BufTy).Contents (Elt F) → (⟨S16384x2048, .f32⟩ : BufTy).Contents (Elt F)),
    nullary main_cst_7 (constant S_ .f32 0x322BCC77#32),
    unary main_cst_7 main_v33 (broadcastInDim S16384x2048 ![] bcast_S_S16384x2048 : (⟨S_, .f32⟩ : BufTy).Contents (Elt F) → (⟨S16384x2048, .f32⟩ : BufTy).Contents (Elt F)),
    binary main_v33 main_v32 main_v34 (addf : (⟨S16384x2048, .f32⟩ : BufTy).Contents (Elt F) → (⟨S16384x2048, .f32⟩ : BufTy).Contents (Elt F) → (⟨S16384x2048, .f32⟩ : BufTy).Contents (Elt F)),
    binary main_v29 main_v34 main_v35 (cmpf .ole : (⟨S16384x2048, .f32⟩ : BufTy).Contents (Elt F) → (⟨S16384x2048, .f32⟩ : BufTy).Contents (Elt F) → (⟨S16384x2048, .i1⟩ : BufTy).Contents (Elt F)),
    nullary main_c_8 (constantI S_ 1 1#1),
    binary main_v35 main_c_8 main_v36 ((fun x v => Host.reduce IntOp.andi x v reducesTo_S16384x2048_S16384_d1 h_S_) : (⟨S16384x2048, .i1⟩ : BufTy).Contents (Elt F) → (⟨S_, .i1⟩ : BufTy).Contents (Elt F) → (⟨S16384, .i1⟩ : BufTy).Contents (Elt F)),
    nullary main_cst_9 (constant S_ .f32 0xBF000000#32),
    nullary main_cst_10 (constant S_ .f32 0x3F000000#32),
    unary main_cst_9 main_call2_v0 ((broadcastInDim S16384 ![] bcast_S_S16384) : (⟨S_, .f32⟩ : BufTy).Contents (Elt F) → (⟨S16384, .f32⟩ : BufTy).Contents (Elt F)),
    unary main_cst_10 main_call2_v1 ((broadcastInDim S16384 ![] bcast_S_S16384) : (⟨S_, .f32⟩ : BufTy).Contents (Elt F) → (⟨S16384, .f32⟩ : BufTy).Contents (Elt F)),
    ternary main_v36 main_call2_v0 main_call2_v1 main_v37 (select : (⟨S16384, .i1⟩ : BufTy).Contents (Elt F) → (⟨S16384, .f32⟩ : BufTy).Contents (Elt F) → (⟨S16384, .f32⟩ : BufTy).Contents (Elt F) → (⟨S16384, .f32⟩ : BufTy).Contents (Elt F)),
    unary main_v37 main_v38 (id : (⟨S16384, .f32⟩ : BufTy).Contents (Elt F) → (⟨S16384, .f32⟩ : BufTy).Contents (Elt F)),
    binary main_v38 main_v23 main_v39 (subf : (⟨S16384, .f32⟩ : BufTy).Contents (Elt F) → (⟨S16384, .f32⟩ : BufTy).Contents (Elt F) → (⟨S16384, .f32⟩ : BufTy).Contents (Elt F)),
    binary main_v39 main_v27 main_v40 (addf : (⟨S16384, .f32⟩ : BufTy).Contents (Elt F) → (⟨S16384, .f32⟩ : BufTy).Contents (Elt F) → (⟨S16384, .f32⟩ : BufTy).Contents (Elt F)),
    nullary main_call3_cst (constant S_ .f32 0x00000000#32),
    unary main_call3_cst main_call3_v0 ((broadcastInDim S16384 ![] bcast_S_S16384) : (⟨S_, .f32⟩ : BufTy).Contents (Elt F) → (⟨S16384, .f32⟩ : BufTy).Contents (Elt F)),
    binary main_v40 main_call3_v0 main_v41 (maximumf : (⟨S16384, .f32⟩ : BufTy).Contents (Elt F) → (⟨S16384, .f32⟩ : BufTy).Contents (Elt F) → (⟨S16384, .f32⟩ : BufTy).Contents (Elt F)),
    nullary main_cst_11 (constant S_ .f32 0x00000000#32),
    binary main_v41 main_cst_11 main_v42 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_12 (constant S_ .f32 0x46800000#32),
    binary main_v42 main_cst_12 main_v43 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., binary_bufs_sub .., unary_bufs_sub .., nullary_bufs_sub .., unary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., binary_bufs_sub .., binary_bufs_sub .., binary_bufs_sub .., nullary_bufs_sub .., binary_bufs_sub .., binary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., binary_bufs_sub .., nullary_bufs_sub .., nullary_bufs_sub .., unary_bufs_sub .., unary_bufs_sub .., ternary_bufs_sub .., unary_bufs_sub .., binary_bufs_sub .., binary_bufs_sub .., nullary_bufs_sub .., unary_bufs_sub .., binary_bufs_sub .., nullary_bufs_sub .., binary_bufs_sub .., nullary_bufs_sub .., binary_bufs_sub ..⟩

/-- From any memory with zero counters: every weakly fair execution of @main terminates, and every buffer ends holding
    what the operations, applied in order to the launch contents, leave in it. -/
theorem run_after (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after (ops (F := F)) (launchContents m c) (Proc.devRef .tc b) :=
  run_seq scopedRefs_eq scopedSems_eq defs main (fun _ => ops) main_eq (fun _ => ops_sub) m ρ

/-- What the operations leave in the result buffer: the mean of the per-sample losses of the arguments. -/
theorem value (m : (ℓ : Loc nD τ sig) → Buf (Elt F) ℓ) (c : Dev nD) :
    after (ops (F := F)) (launchContents m c) (Proc.devRef .tc main_v43)
      = meanV (m ((c.tc : Thread nD τ).loc main_arg0)) (m ((c.tc : Thread nD τ).loc main_arg1)) (m ((c.tc : Thread nD τ).loc main_arg2)) := by
  after_results_simp <;> rfl

/-- No operation writes an argument. -/
theorem kept_arg0 (m : (ℓ : Loc nD τ sig) → Buf (Elt F) ℓ) (c : Dev nD) :
    after (ops (F := F)) (launchContents m c) (Proc.devRef .tc main_arg0) = m ((c.tc : Thread nD τ).loc main_arg0) := by
  after_results_simp <;> rfl
theorem kept_arg1 (m : (ℓ : Loc nD τ sig) → Buf (Elt F) ℓ) (c : Dev nD) :
    after (ops (F := F)) (launchContents m c) (Proc.devRef .tc main_arg1) = m ((c.tc : Thread nD τ).loc main_arg1) := by
  after_results_simp <;> rfl
theorem kept_arg2 (m : (ℓ : Loc nD τ sig) → Buf (Elt F) ℓ) (c : Dev nD) :
    after (ops (F := F)) (launchContents m c) (Proc.devRef .tc main_arg2) = m ((c.tc : Thread nD τ).loc main_arg2) := by
  after_results_simp <;> rfl

/-- THE RUN: the result at the mean of the per-sample losses, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v43)
        = meanV (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v43).trans (value m c), (h c main_arg0).trans (kept_arg0 m c),
      (h c main_arg1).trans (kept_arg1 m c), (h c main_arg2).trans (kept_arg2 m c)⟩) (run_after m ρ)

end Cert.ReferenceIdeal.RefRun

end
-- ==== Proof.LibGatherRows.lean ====
/-
  `x[idx]` along axis 0, with one start index per result row, read at an index.

  jnp's `x[idx]` for an integer vector `idx : [R]` lowers to a gather whose start indices are the column `[R, 1]`:
  of a matrix `x : [N, C]` it takes whole rows (offset axis 1, axis 0 collapsed, slice sizes `[1, C]`), of a vector
  `x : [N]` single entries (no offset axis, slice size `[1]`). Either way result row `r` comes from the operand's row
  `srcRow idx r`: the start index `idx[r, 0]` read as a signed integer and clamped into `[0, N − 1]`, as a gather clamps
  every start index. Both forms use THE SAME source row, which is what lets a row statistic be taken before or after
  the gather.
-/
import Idealize.ShloMosaic.Lib.ValueIdx
import Idealize.ShloMosaic.PureOps.ShapeOps

namespace Idealize.ShloMosaic.GatherRows

open Idealize.ShloMosaic Idealize.ShloMosaic.ValueIdx

variable {α : Type}

/-- The operand row that result row `r` reads: the start index `idx[r, 0]`, signed, clamped into `[0, N − 1]`. -/
def srcRow {N R w : Nat} (hN : 0 < N) (idx : IVec ⟨2, ![R, 1]⟩ w) (r : Fin R) : Fin N :=
  ⟨min (idx (ix2 r (0 : Fin 1))).toInt.toNat (N - 1), by omega⟩

/-- The dimension numbers of a gather of whole rows of an `[N, C]` operand at start indices `[R, 1]`. -/
abbrev rowsDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The dimension numbers of a gather of single entries of an `[N]` operand at start indices `[R, 1]`. -/
abbrev entriesDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- ROWS, READ AT `(r, k)`: the operand's entry `(srcRow idx r, k)`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowsDims N C R wf) x idx (ix2 r k) = x (ix2 (srcRow hN idx r) k) := by
  unfold Host.gather
  congr 1
  funext a
  refine Fin.ext ?_
  have hsi : (rowsDims N C R wf).siIdx (ix2 r k) ⟨List.idxOf (0 : Fin 2) (rowsDims N C R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  match a with
  | ⟨0, _⟩ =>
    show (rowsDims N C R wf).start (ix2 r k) idx 0 + (rowsDims N C R wf).batchCoord (ix2 r k) 0
      + (rowsDims N C R wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R wf).startIndexMap from List.mem_singleton.mpr rfl), hsi]
    rfl
  | ⟨1, _⟩ =>
    show (rowsDims N C R wf).start (ix2 r k) idx 1 + (rowsDims N C R wf).batchCoord (ix2 r k) 1
      + (rowsDims N C R wf).offCoord (ix2 r k) 1 = k.val
    rw [GatherDims.batchCoord_eq_zero _ _ _ List.not_mem_nil]
    unfold GatherDims.start
    rw [dif_neg (show (1 : Fin 2) ∉ (rowsDims N C R wf).startIndexMap from (by decide : (1 : Fin 2) ∉ ([0] : List (Fin 2))))]
    simp only [Nat.add_zero, Nat.zero_add]
    rfl

/-- ENTRIES, READ AT `r`: the operand's entry `srcRow idx r`. -/
theorem gather_entries_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (entriesDims N R wf) x idx (ix1 r) = x (ix1 (srcRow hN idx r)) := by
  unfold Host.gather
  congr 1
  funext a
  obtain rfl : a = 0 := Subsingleton.elim _ _
  refine Fin.ext ?_
  show (entriesDims N R wf).start (ix1 r) idx 0 + (entriesDims N R wf).batchCoord (ix1 r) 0
    + (entriesDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entriesDims N R wf).startIndexMap from List.mem_singleton.mpr rfl)]
  have hsi : (entriesDims N R wf).siIdx (ix1 r) ⟨List.idxOf (0 : Fin 1) (entriesDims N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

end Idealize.ShloMosaic.GatherRows
-- ==== Proof.RefRow.lean ====
/-
  The reference's per-sample loss, read at a row.

  Every stage of the reference works row by row. At the extended reals: a host sum over the columns, read at row
  `r`, is the sum over `k : Fin 2048` of the entries `(r, k)` (the initial value is 0); the conjunction over the
  columns is the fold of `and` over those entries; the gather of rows of `t` and the gather of entries of its
  row-norm vector read THE SAME source row `partner j r` — the index `j[r]`, wrapped by +16384 if negative, read
  signed and clamped into `[0, 16383]` — so the gathered norm at `r` IS the norm of the gathered row: taking the
  row norm commutes with choosing rows. Hence sample `r`'s loss is the hinge loss of row `r` of the predictions,
  row `r` of the targets, and row `partner j r` of the targets.
-/
import proofs.«170104_j2224793059461_1_alg».proof.Proof.RefRun
import proofs.«170104_j2224793059461_1_alg».proof.Proof.HingeRow
import proofs.«170104_j2224793059461_1_alg».proof.Proof.LibGatherRows
import proofs.«170104_j2224793059461_1_alg».proof.Proof.LibRowMin
import Idealize.ShloMosaic.Lib.ValueIdx
import Idealize.ShloMosaic.PureOps.Ideal.Laws
import Idealize.ShloMosaic.PureOps.Reduce

noncomputable section

namespace Cert.ReferenceIdeal.RefRow

open Cert.ReferenceIdeal Cert.ReferenceIdeal.Gen Cert.ReferenceIdeal.RefRun Cert.Hinge
open Idealize.ShloMosaic Idealize.ShloMosaic.ValueIdx Idealize.ShloMosaic.GatherRows

/-! ## Host operations on the extended reals, read at an index -/

theorem hsqrt_at {s : Shape} (a : FVec Ideal s .f32) (i : s.Idx) : Host.sqrt a i = Ideal.sqrt (a i) := rfl
theorem hdivf_at {s : Shape} (a b : FVec Ideal s .f32) (i : s.Idx) : Host.divf a b i = Ideal.div (a i) (b i) := rfl
theorem habsf_at {s : Shape} (a : FVec Ideal s .f32) (i : s.Idx) : Host.absf a i = max (a i) (-(a i)) := rfl
theorem cmpf_at {s : Shape} (q : CmpFPredicate) (a b : FVec Ideal s .f32) (i : s.Idx) :
    cmpf q a b i = Ideal.cmp q (a i) (b i) := rfl
theorem splat_at {t : Shape} (h : S_.BroadcastsInDim t (![] : Fin 0 → Fin t.rank)) (b : BitVec 32) (i : t.Idx) :
    broadcastInDim t ![] h (constant (F := Ideal) S_ .f32 b) i = Ideal.ofBits .f32 b := rfl

/-- Row `r` of a `[16384, 2048]` array. -/
abbrev rowAt (a : S16384x2048.Idx → EReal) (r : Fin 16384) : Fin 2048 → EReal := fun k => a (ix2 r k)

/-- The row of `t` that sample `r` is paired with. -/
def partner (j : IVec S16384 32) (r : Fin 16384) : Fin 16384 :=
  srcRow (N := 16384) (by decide) (startIdx j) r

/-! ## The stages, at a row -/

/-- A host sum over the columns from 0, read at row `r`. -/
theorem rowSum (x : FVec Ideal S16384x2048 .f32) (r : Fin 16384) :
    Host.reduceAdd (F := Ideal) x (constant S_ .f32 0x00000000#32) Facts₀.reducesTo_S16384x2048_S16384_d1 Facts₀.h_S_ (ix1 r)
      = ∑ k : Fin 2048, x (ix2 r k) := by
  simp only [Host.reduceAdd, Ideal.hostReduceAdd_def]
  rw [Ideal.hostReduceAdd_single Facts₀.reducesTo_S16384x2048_S16384_d1 (by decide)]
  have h0 : (constant (F := Ideal) S_ .f32 0x00000000#32) (Shape.Idx.first Facts₀.h_S_) = 0 := Ideal.ofBits_zero_f32
  rw [h0, zero_add]
  refine Finset.sum_congr rfl fun k _ => ?_
  exact congrArg x (funext fun a => Fin.ext (by match a with | ⟨0, _⟩ => rfl | ⟨1, _⟩ => rfl))

/-- A conjunction over the columns from `true`, read at row `r`. -/
theorem rowAll (x : IVec S16384x2048 1) (r : Fin 16384) :
    Host.reduce IntOp.andi x (constantI S_ 1 1#1) Facts₀.reducesTo_S16384x2048_S16384_d1 Facts₀.h_S_ (ix1 r)
      = (Finset.univ : Finset (Fin 2048)).fold IntOp.andi 1#1 (fun k => x (ix2 r k)) := by
  rw [Host.reduce_eq_fold_single IntOp.andi x _ Facts₀.reducesTo_S16384x2048_S16384_d1 (by decide) Facts₀.h_S_ (ix1 r)]
  exact congrArg (fun f => (Finset.univ : Finset (Fin 2048)).fold IntOp.andi 1#1 f)
    (funext fun k => congrArg x (RowMin.lift_row _ r k))

/-- The clamped norm vector at `r`: the clamped norm of row `r`. -/
theorem normV_at (x : FVec Ideal S16384x2048 .f32) (r : Fin 16384) : normV (F := Ideal) x (ix1 r) = nrm (rowAt x r) := by
  unfold normV
  simp only [maximumf_apply, hsqrt_at, splat_at, rowSum, mulf_apply]
  rfl

/-- The gathered rows: row `r` is row `partner j r` of the operand. -/
theorem gatherRows_row (t : FVec Ideal S16384x2048 .f32) (j : IVec S16384 32) (r : Fin 16384) :
    rowAt (gatherRows (F := Ideal) t j) r = rowAt t (partner j r) :=
  funext fun k => gather_rows_apply (N := 16384) (C := 2048) (R := 16384) (by decide)
    Facts₀.gather_S16384x2048_S16384x1_S16384x2048_1_0_n_n_0_1_12048_wf t (startIdx j) r k

/-- The gathered norms: entry `r` is the clamped norm of row `partner j r` — the norm of the gathered row. -/
theorem gatherNorm_at (t : FVec Ideal S16384x2048 .f32) (j : IVec S16384 32) (r : Fin 16384) :
    gatherNorm (F := Ideal) t j (ix1 r) = nrm (rowAt t (partner j r)) :=
  (gather_entries_apply (N := 16384) (R := 16384) (by decide)
    Facts₀.gather_S16384_S16384x1_S16384_n_0_n_n_0_1_1_wf (normV (F := Ideal) t) (startIdx j) r).trans (normV_at t (partner j r))

/-- A cosine at `r`. -/
theorem cosV_at (y a : FVec Ideal S16384x2048 .f32) (ny na : FVec Ideal S16384 .f32) (r : Fin 16384) :
    cosV (F := Ideal) y a ny na (ix1 r) = Ideal.div (dot (rowAt y r) (rowAt a r)) (ny (ix1 r) * na (ix1 r)) := by
  unfold cosV
  simp only [hdivf_at, mulf_apply, rowSum]
  rfl

/-- The closeness bit at `r`. -/
theorem sameV_at (t tj : FVec Ideal S16384x2048 .f32) (r : Fin 16384) :
    sameV (F := Ideal) t tj (ix1 r) = allClose (rowAt t r) (rowAt tj r) := by
  unfold sameV
  rw [rowAll]
  simp only [cmpf_at, habsf_at, subf_apply, addf_apply, mulf_apply, splat_at]
  rfl

/-- The shape of the last stage, over any bit vector and any loss terms: select, subtract, add, clamp at an entry. -/
theorem loss_shape (c : IVec S16384 1) (A B x y z : FVec Ideal S16384 .f32) (r : Fin 16384) :
    maximumf (addf (subf (id (select c A B)) x) y) z (ix1 r)
      = max (Scalar.select (c (ix1 r)) (A (ix1 r)) (B (ix1 r)) - x (ix1 r) + y (ix1 r)) (z (ix1 r)) := by
  simp only [maximumf_apply, addf_apply, subf_apply, id]
  rw [select_apply]

/-- THE REFERENCE, ROW BY ROW: sample `r`'s loss is the hinge loss of row `r` of the predictions, row `r` of the
    targets and row `partner j r` of the targets. -/
theorem lossV_at (o t : FVec Ideal S16384x2048 .f32) (j : IVec S16384 32) (r : Fin 16384) :
    lossV (F := Ideal) o t j (ix1 r) = rowLoss (rowAt o r) (rowAt t r) (rowAt t (partner j r)) := by
  have e1 : sameV (F := Ideal) t (gatherRows t j) (ix1 r) = allClose (rowAt t r) (rowAt t (partner j r)) :=
    (sameV_at t (gatherRows t j) r).trans (congrArg (allClose (rowAt t r)) (gatherRows_row t j r))
  have e2 : cosV (F := Ideal) t o (normV t) (normV o) (ix1 r) = cosine (rowAt t r) (rowAt o r) :=
    (cosV_at t o (normV t) (normV o) r).trans
      (congrArg₂ (fun a b => Ideal.div (dot (rowAt t r) (rowAt o r)) (a * b)) (normV_at t r) (normV_at o r))
  have e3 : cosV (F := Ideal) (gatherRows t j) o (gatherNorm t j) (normV o) (ix1 r)
      = cosine (rowAt t (partner j r)) (rowAt o r) :=
    (cosV_at (gatherRows t j) o (gatherNorm t j) (normV o) r).trans
      (congr (congrArg Ideal.div (congrArg (fun y => dot y (rowAt o r)) (gatherRows_row t j r)))
        (congrArg₂ (fun a b : EReal => a * b) (gatherNorm_at t j r) (normV_at o r)))
  unfold lossV
  rw [loss_shape, e1, e2, e3]
  rfl

end Cert.ReferenceIdeal.RefRow

end
-- ==== Proof.LibUnitAxisSums.lean ====
/-
  General lemmas about unit axes and sums over index sets, independent of any program.

  * `shapeCast_a_a1_apply`: a vector of length `a` viewed as a column `[a, 1]` (a row reduction kept with
    `keepdims=True`) reads, at `(i, u)`, the vector's entry `i`.
  * `sum_idx1`: a sum over the index set of a rank-1 shape `[n]` is the sum over `Fin n`.
  * `sum_idx_1n1`: a sum over the index set of the shape `[1, n, 1]` is the sum over its middle coordinate.
  * `sum_fin_blocks`: a sum over `Fin (q * n)` cut into `q` consecutive blocks of `n`:
    `∑ i, g i = ∑ b, ∑ r, g (n * b + r)`.
-/
import Idealize.ShloMosaic.Lib.Pipeline.Value
import Idealize.ShloMosaic.Lib.ValueIdx

noncomputable section

open scoped BigOperators

namespace Idealize.ShloMosaic.ValueIdx

open Idealize.ShloMosaic

variable {α : Type}

/-- An `[a]` array cast to the column `[a, 1]` reads, at `(i, u)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index set of the rank-1 shape `[n]` is `Fin n` … -/
def idxEquiv1 {n : Nat} : (⟨1, ![n]⟩ : Shape).Idx ≃ Fin n where
  toFun i := i 0
  invFun r := ix1 r
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ r : Fin n, f (ix1 r) := by
  rw [← Equiv.sum_comp (idxEquiv1 (n := n)).symm f]
  rfl

/-- The index set of the shape `[1, n, 1]` is `Fin n`: the two unit coordinates are `0`. -/
def idxEquiv_1n1 {n : Nat} : (⟨3, ![1, n, 1]⟩ : Shape).Idx ≃ Fin n where
  toFun i := i 1
  invFun r := ix3 (0 : Fin 1) r (0 : Fin 1)
  left_inv i := by
    funext a
    match a with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- … so a sum over it is the sum over the middle coordinate. -/
theorem sum_idx_1n1 {M : Type*} [AddCommMonoid M] {n : Nat} (f : (⟨3, ![1, n, 1]⟩ : Shape).Idx → M) :
    ∑ i, f i = ∑ r : Fin n, f (ix3 (0 : Fin 1) r (0 : Fin 1)) := by
  rw [← Equiv.sum_comp (idxEquiv_1n1 (n := n)).symm f]
  rfl

/-- A sum over `q * n` consecutive positions, cut into `q` blocks of `n`. -/
theorem sum_fin_blocks {M : Type*} [AddCommMonoid M] (q n : Nat) (g : Fin (q * n) → M) :
    ∑ i, g i = ∑ b : Fin q, ∑ r : Fin n, g ⟨n * b.val + r.val, by
      have hb := b.isLt; have hr := r.isLt
      calc n * b.val + r.val < n * b.val + n := by omega
        _ = n * (b.val + 1) := by ring
        _ ≤ n * q := Nat.mul_le_mul_left n hb
        _ = q * n := Nat.mul_comm n q⟩ := by
  rw [← Equiv.sum_comp (finProdFinEquiv : Fin q × Fin n ≃ Fin (q * n)) g, Fintype.sum_prod_type]
  refine Finset.sum_congr rfl fun b _ => Finset.sum_congr rfl fun r _ => congrArg g (Fin.ext ?_)
  show r.val + n * b.val = n * b.val + r.val
  omega

end Idealize.ShloMosaic.ValueIdx

end
-- ==== Proof.MeanEq.lean ====
/-
  The two programs' results are one function of the arguments.

  The kernel program sums its `[16384, 1]` loss column over both axes; the reference sums its `[16384]` loss vector.
  On the extended reals each sum is 0 plus the sum over every index, and both index sets are the 16384 rows: the
  column's through `(r, 0)`, the vector's through `r`. Row by row the entries agree: the column's entry is the hinge
  loss of row `r` of (predictions, targets, gathered targets), the reference's that of row `r` of the predictions,
  row `r` of the targets and row `partner j r` of the targets — and row `r` of the gathered targets IS row
  `partner j r` of the targets, the two programs computing their start indices by the same operations. Both sums are
  then divided by the same constant.
-/
import proofs.«170104_j2224793059461_1_alg».proof.Proof.KernelRun
import proofs.«170104_j2224793059461_1_alg».proof.Proof.RefRow
import proofs.«170104_j2224793059461_1_alg».proof.Proof.LibUnitAxisSums
import Idealize.ShloMosaic.PureOps.Ideal.Laws

noncomputable section

namespace Cert.Bridge

open Idealize.ShloMosaic Idealize.ShloMosaic.ValueIdx Cert.Hinge
open Cert.KernelIdeal.ArrayValue (lossCol)
open Cert.KernelIdeal.RunValue (meanK gathered)
open Cert.ReferenceIdeal.RefRun (meanV lossV)
open Cert.ReferenceIdeal.RefRow (partner lossV_at)

/-- Row `r` of the kernel program's gathered targets is row `partner j r` of the targets. -/
theorem gathered_row (t : FVec Ideal Cert.KernelIdeal.S16384x2048 .f32) (j : IVec Cert.KernelIdeal.S16384 32) (r : Fin 16384) :
    (fun k : Fin 2048 => gathered t j (ix2 r k)) = fun k : Fin 2048 => t (ix2 (partner j r) k) :=
  funext fun k => GatherRows.gather_rows_apply (N := 16384) (C := 2048) (R := 16384) (by decide)
    Cert.KernelIdeal.Facts₀.gather_S16384x2048_S16384x1_S16384x2048_1_0_n_n_0_1_12048_wf t
    (Cert.KernelIdeal.RunValue.startIdx j) r k

/-- The host sum of a `[16384, 1]` column over both axes, from 0: the sum of its 16384 entries. -/
theorem colSum (X : FVec Ideal Cert.KernelIdeal.S16384x1 .f32) (i : Cert.KernelIdeal.S_.Idx) :
    Host.reduceAdd (F := Ideal) X (constant Cert.KernelIdeal.S_ .f32 0x00000000#32)
        Cert.KernelIdeal.Facts₀.reducesTo_S16384x1_S_d0_1 Cert.KernelIdeal.Facts₀.h_S_ i
      = ∑ r : Fin 16384, X (ix2 r (0 : Fin 1)) := by
  simp only [Host.reduceAdd, Ideal.hostReduceAdd_def]
  rw [Ideal.hostReduceAdd_total Cert.KernelIdeal.Facts₀.reducesTo_S16384x1_S_d0_1 (fun b => b.elim0)]
  have h0 : (constant (F := Ideal) Cert.KernelIdeal.S_ .f32 0x00000000#32) (Shape.Idx.first Cert.KernelIdeal.Facts₀.h_S_) = 0 :=
    Ideal.ofBits_zero_f32
  rw [h0, zero_add]
  refine (sum_idx2 X).trans (Finset.sum_congr rfl fun r _ => ?_)
  exact Fin.sum_univ_one _

/-- The host sum of a `[16384]` vector, from 0: the sum of its 16384 entries. -/
theorem vecSum (Y : FVec Ideal Cert.ReferenceIdeal.S16384 .f32) (i : Cert.ReferenceIdeal.S_.Idx) :
    Host.reduceAdd (F := Ideal) Y (constant Cert.ReferenceIdeal.S_ .f32 0x00000000#32)
        Cert.ReferenceIdeal.Facts₀.reducesTo_S16384_S_d0 Cert.ReferenceIdeal.Facts₀.h_S_ i
      = ∑ r : Fin 16384, Y (ix1 r) := by
  simp only [Host.reduceAdd, Ideal.hostReduceAdd_def]
  rw [Ideal.hostReduceAdd_total Cert.ReferenceIdeal.Facts₀.reducesTo_S16384_S_d0 (fun b => b.elim0)]
  have h0 : (constant (F := Ideal) Cert.ReferenceIdeal.S_ .f32 0x00000000#32) (Shape.Idx.first Cert.ReferenceIdeal.Facts₀.h_S_) = 0 :=
    Ideal.ofBits_zero_f32
  rw [h0, zero_add]
  exact sum_idx1 Y

/-- Row by row: the loss column's entry `(r, 0)` is the reference's loss of sample `r`. -/
theorem entry_eq (o t : FVec Ideal Cert.KernelIdeal.S16384x2048 .f32) (j : IVec Cert.KernelIdeal.S16384 32) (r : Fin 16384) :
    lossCol o t (gathered t j) (ix2 r (0 : Fin 1)) = lossV (F := Ideal) o t j (ix1 r) := by
  rw [lossV_at]
  show rowLoss (fun k : Fin 2048 => o (ix2 r k)) (fun k : Fin 2048 => t (ix2 r k)) (fun k : Fin 2048 => gathered t j (ix2 r k))
    = rowLoss (fun k : Fin 2048 => o (ix2 r k)) (fun k : Fin 2048 => t (ix2 r k)) (fun k : Fin 2048 => t (ix2 (partner j r) k))
  rw [gathered_row]

/-- THE BRIDGE: the kernel program's result and the reference's are one function of the arguments. -/
theorem mean_eq (o t : FVec Ideal Cert.KernelIdeal.S16384x2048 .f32) (j : IVec Cert.KernelIdeal.S16384 32) :
    meanK o t j = meanV (F := Ideal) o t j := by
  funext i
  unfold Cert.KernelIdeal.RunValue.meanK Cert.KernelIdeal.RunValue.meanOf Cert.ReferenceIdeal.RefRun.meanV
  simp only [Cert.ReferenceIdeal.RefRow.hdivf_at]
  rw [colSum (lossCol o t (gathered t j)) i, vecSum (lossV (F := Ideal) o t j) i]
  exact congrArg (fun s => Ideal.div s (Ideal.ofBits .f32 0x46800000#32))
    (Finset.sum_congr rfl fun r _ => entry_eq o t j r)

end Cert.Bridge

end
-- ==== Proof.lean ====
/-
  The certificate of a contrastive hinge loss: a row-tiled kernel against its plain reference.

  For predictions `o` and targets `t` of shape [16384, 2048] and partner indices `j`, both programs compute the mean
  over the 16384 samples of  max (m − cos(tᵢ, oᵢ) + cos(t_{j(i)}, oᵢ)) 0,  the cosines with norms clamped below by ε and
  the margin `m` equal to −1/2 when row `j(i)` of the targets is entrywise close to row `i`, +1/2 otherwise. The
  kernel program gathers the partner rows on the host, computes the per-sample losses 256 rows at a time, and
  averages on the host; the reference works on whole arrays.

  On the extended reals the two results are equal for ALL inputs — no finiteness is used — because every difference
  between the programs is one of arrangement: row sums kept as columns; the closeness test taken as a minimum of
  indicators instead of a conjunction (Proof/HingeRow.lean); the partner's norm computed from the gathered row instead
  of gathered from the norms, both through the same clamped row choice (Proof/RefRow.lean, Proof/LibGatherRows.lean);
  a final sum over a column instead of a vector (Proof/MeanEq.lean). The pieces: the body read row by row
  (Proof/KernelRow.lean), the blocks assembled into the loss column (Proof/KernelArray.lean), the kernel program's run
  with its host operations on both sides of the region (Proof/KernelRun.lean), the reference's run
  (Proof/RefRun.lean) and its reading by rows (Proof/RefRow.lean). The three frames are the generated frame runs and
  the reference's run with its result dropped; the idealization rewrote nothing, so `preserves` is trivial.
-/
import proofs.«170104_j2224793059461_1_alg».proof.Defs
import proofs.«170104_j2224793059461_1_alg».proof.Proof.Gen.Kernel
import proofs.«170104_j2224793059461_1_alg».proof.Proof.Gen.Kernel.Skeleton
import proofs.«170104_j2224793059461_1_alg».proof.Proof.Gen.Kernel.Launch
import proofs.«170104_j2224793059461_1_alg».proof.Proof.Gen.Kernel.Points
import proofs.«170104_j2224793059461_1_alg».proof.Proof.Gen.Kernel.Frame
import proofs.«170104_j2224793059461_1_alg».proof.Proof.Gen.KernelIdeal
import proofs.«170104_j2224793059461_1_alg».proof.Proof.Gen.KernelIdeal.Skeleton
import proofs.«170104_j2224793059461_1_alg».proof.Proof.Gen.KernelIdeal.Launch
import proofs.«170104_j2224793059461_1_alg».proof.Proof.Gen.KernelIdeal.Points
import proofs.«170104_j2224793059461_1_alg».proof.Proof.Gen.KernelIdeal.Frame
import proofs.«170104_j2224793059461_1_alg».proof.Proof.Gen.ReferenceIdeal
import proofs.«170104_j2224793059461_1_alg».proof.Proof.Gen.Pre_finite_inputs
import proofs.«170104_j2224793059461_1_alg».proof.Proof.KernelRun
import proofs.«170104_j2224793059461_1_alg».proof.Proof.RefRun
import proofs.«170104_j2224793059461_1_alg».proof.Proof.MeanEq
import Idealize.ShloMosaic.Adequacy
import Idealize.ShloMosaic.Init

noncomputable section

namespace Cert.Proof

open Idealize.ShloMosaic Idealize.SL.Sem

/-- The word-level kernel program runs and leaves its arguments alone: the generated frame run. -/
theorem frame_k : Cert.frame_Kernel := fun m ρ _ => Cert.Kernel.Gen.frame m ρ

/-- So does the idealized one. -/
theorem frame_ki : Cert.frame_KernelIdeal := fun m ρ _ => Cert.KernelIdeal.Gen.frame m ρ

/-- The reference runs and leaves its arguments alone: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- On the extended reals the kernel program ends at the mean of the hinge losses of its rows and the reference at
    the mean of its per-sample losses, of arguments that agree: one function of them. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  exact (Cert.Bridge.mean_eq _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
